-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x256 : Shape := ⟨2, ![1, 256]⟩
abbrev S8192x128 : Shape := ⟨2, ![8192, 128]⟩
abbrev S1x128 : Shape := ⟨2, ![1, 128]⟩
abbrev S128 : Shape := ⟨1, ![128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x128, .f32⟩
  | .local _ .vmem, ⟨5, _⟩ => ⟨S1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  reducesTo_S1x256_S_d0_1 : S1x256.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x256.size a
  hwx0_2 : ∀ i : grid0.Coords, EltTy.bits .f32 = 32 ∨ (Rect.block (s := S1x256) S1x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.HingeCases.lean ====
/-
  What one grid point leaves in the output's staging row.  A tile is an 8192 x 128 block of each input; its
  "column sums" are, per lane l, the sum over the 8192 rows r of max(0, (0.1 - a[r,l]) + b[r,l]).  At the first
  point of a run of sixteen the body stores a zero row and then adds the tile's column sums to it; at every later
  point it adds the tile's column sums to what the row held.  Both facts hold for any float instance.
-/
import proofs.«111427_j82171314307698_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hinge

open Cert.KernelIdeal Cert.KernelIdeal.Gen

variable {F : FTy → Type} [FloatOps F]

/-- Both accesses of every staging buffer start at the origin. -/
theorem origin : (![0, 0] : Fin 2 → Nat) = fun _ => 0 := funext fun a => by fin_cases a <;> rfl

/-- The row of zeros the first point of a run stores. -/
abbrev zeroRow : Vec F S1x128 .f32 := broadcast S1x128 (Scalar.ofBits .f32 0x00000000#32)

/-- A tile's column sums of the hinge max(0, (0.1 - a) + b), as a 1 x 128 row. -/
def tileSums (x0 x1 : Vec F S8192x128 .f32) : FVec F S1x128 .f32 :=
  shapeCast S1x128
    (multiReduction .add [0] S128
      (maximumf (broadcast S8192x128 (Scalar.ofBits .f32 0x00000000#32))
        (addf (subf (broadcast S8192x128 (Scalar.ofBits .f32 0x3DCCCCCD#32)) x0) x1))
      0x00000000#32 reduces_S8192x128_S128 (.inl rfl) rfl)
    shapeCasts_S128_S1x128

/-- A later point of a run: the row that held xo ends holding xo plus the tile's column sums. -/
theorem later_point (c : Dev nD) (i : grid0.Coords) (a2 : Memref sig .tc .vmem S8192x128 .f32) (h2 : a2.IsWhole)
    (a3 : Memref sig .tc .vmem S8192x128 .f32) (h3 : a3.IsWhole) (a4 : Memref sig .tc .vmem S1x128 .f32) (h4 : a4.IsWhole)
    (hc : ¬cond0_0 i) (x0 x1 : Vec F S8192x128 .f32) (xo : Vec F S1x128 .f32) :
    out0_B_2 c i a2 h2 a3 h3 a4 h4 hc x0 x1 xo = addf xo (tileSums x0 x1) := by
  unfold out0_B_2
  rw [View.read_writes_eq_canon _ _ _ (cover0_B_2 c i a2 h2 a3 h3 a4 h4 hc x0 x1 xo)]
  unfold kernelRun0_B
  dsimp only
  rw [View.canon_unit_zero origin]
  unfold k0_pay2 tileSums
  simp only [View.readAt_eq_ld, h2.read_unread, h3.read_unread, h4.read_unread, View.ld_unit_zero (S := S8192x128) origin,
    View.ld_unit_zero (S := S1x128) origin, shapeCast_self]

/-- The first point of a run: whatever the row held, it ends holding the zero row plus the tile's column sums
    (the body stores the zero row, reads it back, and adds). -/
theorem first_point (c : Dev nD) (i : grid0.Coords) (a2 : Memref sig .tc .vmem S8192x128 .f32) (h2 : a2.IsWhole)
    (a3 : Memref sig .tc .vmem S8192x128 .f32) (h3 : a3.IsWhole) (a4 : Memref sig .tc .vmem S1x128 .f32) (h4 : a4.IsWhole)
    (hc : cond0_0 i) (x0 x1 : Vec F S8192x128 .f32) :
    out0_A_2 c i a2 h2 a3 h3 a4 h4 hc x0 x1 = addf zeroRow (tileSums x0 x1) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x128) origin, View.readCov_unit_zero (S := S1x128) _ origin]
  unfold k0_pay2 k0_pay1 tileSums
  simp only [View.readAt_eq_ld, h2.read_unread, h3.read_unread, View.ld_unit_zero (S := S8192x128) origin, shapeCast_self]

end Cert.KernelIdeal.Hinge

end
-- ==== Proof.HingeFold.lean ====
/-
  The output's staging row across the grid.  The 32 grid points come in two runs of sixteen (points 16c .. 16c+15);
  the first point of a run leaves the zero row plus its tile's column sums, every later point adds its tile's
  column sums to what the point before left.  So after point t the row is the fold, over the points of t's run up
  to t, of "add this point's column sums", started from the zero row: an induction along a run, not over the grid.
  Holds for any float instance.
-/
import proofs.«111427_j82171314307698_2_alg».proof.Proof.HingeCases

noncomputable section

open Idealize.ShloMosaic Idealize.ShloMosaic.TcCoe Idealize.SL.Sem
open Idealize.ShloMosaic.Pipeline (Dat)

namespace Cert.KernelIdeal.Hinge

open Cert.KernelIdeal Cert.KernelIdeal.Gen

variable {F : FTy → Type} [FloatOps F]
variable (m : (ℓ : Loc nD τ sig) → Buf (Elt F) ℓ)

/-- The column sums of the two input tiles grid point n reads. -/
def pointSums (c : Dev nD) (n : ℕ) (h : n < cfg0.N) : Vec F S1x128 .f32 :=
  tileSums (iblk m c 0 ⟨n, h⟩) (iblk m c 1 ⟨n, h⟩)

/-- The row after the first point of a run. -/
def startRow (c : Dev nD) (n : ℕ) (h : n < cfg0.N) : Vec F S1x128 .f32 := addf zeroRow (pointSums m c n h)

/-- The row after a later point, from the row before it. -/
def stepRow (c : Dev nD) (n : ℕ) (h : n < cfg0.N) (acc : Vec F S1x128 .f32) : Vec F S1x128 .f32 :=
  addf acc (pointSums m c n h)

/-- After point t the staging row is the fold over t's run, from the run's first point 16 * (t / 16) up to t. -/
theorem row_eq_fold (c : Dev nD) (t : ℕ) (ht : t < cfg0.N) (h' : 16 * (t / 16) + t % 16 < cfg0.N) :
    outsAt0 m c t ht = Pipeline.accAt (startRow m c) (stepRow m c) (16 * (t / 16)) (t % 16) h' :=
  Pipeline.eq_accAt_of_mod (outsAt0 m c) 16 (startRow m c) (stepRow m c)
    (fun n h h0 => (outsAt0_A m c ⟨n, h⟩ h0).trans (first_point ..))
    (fun n h hne => by
      rw [outsAt0_B m c ⟨n + 1, h⟩ hne, later_point]
      rfl)
    (by decide) t ht h'

end Cert.KernelIdeal.Hinge

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.HingeSum.lean ====
/-
  The arithmetic behind the mean hinge loss over N = 2^25 = 33554432 elements, on the extended reals.

  One element contributes max(z, (w - a) + b) as the kernel spells it and max(z, w - (a - b)) as the reference
  does (z the word 0, w the word of 0.1); the two agree whenever a and b are real numbers, because then
  -(a - b) = -a + b and extended-real addition is associative.  (With a = b = +inf they differ, which is why the
  inputs are required to be finite.)

  The kernel adds the elements in this order: element k = ((c*16 + s)*8192 + r)*128 + l sits in lane l of row r of
  tile 16c + s; output lane q = 128c + l collects, over the sixteen tiles s of run c, the sum over the tile's 8192
  rows.  Every k below 2*16*8192*128 is met exactly once, so the 256 lane totals add up to the sum over all k: a
  sum over range (A*B) is a double sum over range A and range B, three times over, then two exchanges of the
  order of summation.  No finiteness is needed for that part: sums in a commutative monoid.
-/
import proofs.«111427_j82171314307698_2_alg».proof.Proof.LibSums

noncomputable section

namespace Cert.Hinge

open Finset

open Cert.LibSums (sum_range_mul)

/-- The kernel's order of summation meets every element below 2^25 exactly once: lanes q < 256, the sixteen tiles
    of lane q's run, the 8192 rows of a tile. -/
theorem sum_lanes_tiles_rows {M : Type*} [AddCommMonoid M] (H : ℕ → M) :
    ∑ q ∈ range 256, ∑ s ∈ range 16, ∑ r ∈ range 8192, H (((16 * (q / 128) + s) * 8192 + r) * 128 + q % 128)
      = ∑ k ∈ range 33554432, H k := by
  rw [show (33554432 : ℕ) = 2 * 16 * 8192 * 128 from rfl, sum_range_mul H (2 * 16 * 8192) 128,
    sum_range_mul (fun R => ∑ l ∈ range 128, H (R * 128 + l)) (2 * 16) 8192,
    sum_range_mul (fun t => ∑ r ∈ range 8192, ∑ l ∈ range 128, H ((t * 8192 + r) * 128 + l)) 2 16,
    show (256 : ℕ) = 2 * 128 from rfl,
    sum_range_mul (fun q => ∑ s ∈ range 16, ∑ r ∈ range 8192, H (((16 * (q / 128) + s) * 8192 + r) * 128 + q % 128)) 2 128]
  refine sum_congr rfl fun c _ => ?_
  rw [sum_comm]
  refine sum_congr rfl fun s _ => ?_
  rw [sum_comm]
  refine sum_congr rfl fun r _ => sum_congr rfl fun l hl => ?_
  rw [mem_range] at hl
  exact congrArg H (by omega)

section Element

variable (z w : EReal) (A B : ℕ → EReal)

/-- One element as the kernel computes it: max(z, (w - a) + b). -/
def elemK (k : ℕ) : EReal := max z ((w - A k) + B k)

/-- One element as the reference computes it: max(z, w - (a - b)). -/
def elemR (k : ℕ) : EReal := max z (w - (A k - B k))

/-- Where both inputs are real numbers the two spellings are one value. -/
theorem elemK_eq_elemR (k : ℕ) (hA : ∃ x : ℝ, A k = x) (hB : ∃ y : ℝ, B k = y) : elemK z w A B k = elemR z w A B k := by
  obtain ⟨x, hx⟩ := hA
  obtain ⟨y, hy⟩ := hB
  unfold elemK elemR
  rw [hx, hy]
  have e : (-(x : EReal) + (y : EReal)) = -((x : EReal) - (y : EReal)) := by
    rw [← EReal.coe_sub, ← EReal.coe_neg, ← EReal.coe_neg, ← EReal.coe_add]
    exact congrArg _ (by ring)
  rw [sub_eq_add_neg w, add_assoc, e, ← sub_eq_add_neg]

/-- Lane l of tile n: the sum of the tile's 8192 rows at that lane. -/
def colSum (n l : ℕ) : EReal := ∑ r ∈ range 8192, elemK z w A B ((n * 8192 + r) * 128 + l)

/-- Output lane q: the sum over the sixteen tiles of its run. -/
def laneTotal (q : ℕ) : EReal := ∑ s ∈ range 16, colSum z w A B (16 * (q / 128) + s) (q % 128)

/-- The 256 lane totals add up to the sum of every element. -/
theorem sum_laneTotal : ∑ q ∈ range 256, laneTotal z w A B q = ∑ k ∈ range 33554432, elemK z w A B k :=
  sum_lanes_tiles_rows (elemK z w A B)

end Element

end Cert.Hinge

end
-- ==== Proof.HingeLanes.lean ====
/-
  The tiles read as numbers, at the extended reals.  Grid point t reads rows 8192 t .. 8192 t + 8191 of each input
  seen as a 262144 x 128 array, and row R, lane l of that array is element 128 R + l of the flat input.  So lane l
  of point t's column sums is the sum over r < 8192 of the element's hinge at k = (8192 t + r) * 128 + l.
-/
import proofs.«111427_j82171314307698_2_alg».proof.Proof.HingeFold
import proofs.«111427_j82171314307698_2_alg».proof.Proof.HingeSum
import Idealize.ShloMosaic.Lib.ValueIdx
import Idealize.ShloMosaic.Lib.ValueLayout
import Idealize.ShloMosaic.PureOps.Ideal.Laws
import Idealize.ShloMosaic.Lib.StableHlo.Run

noncomputable section

open Idealize.ShloMosaic Idealize.ShloMosaic.TcCoe Idealize.SL.Sem
open Idealize.ShloMosaic.Pipeline (Dat)

namespace Cert.KernelIdeal.Hinge

open Cert.KernelIdeal Cert.KernelIdeal.Gen Idealize.ShloMosaic.ValueIdx

variable (m : (ℓ : Loc nD τ sig) → Buf (Elt Ideal) ℓ)

/-- The word of zero, and the word of the margin 0.1, as extended reals. -/
abbrev zeroW : EReal := Ideal.ofBits .f32 0x00000000#32
abbrev marginW : EReal := Ideal.ofBits .f32 0x3DCCCCCD#32

/-- A flat input read at a natural number (0 past its end; never used there). -/
def flat (a : S33554432.Idx → EReal) (k : ℕ) : EReal := if h : k < 33554432 then a (ix1 ⟨k, h⟩) else 0

/-- Lane l of a tile's column sums: the sum over the tile's rows of the hinge of the two entries. -/
theorem tileSums_apply (x0 x1 : Vec Ideal S8192x128 .f32) (u : Fin 1) (l : Fin 128) :
    tileSums (F := Ideal) x0 x1 (ix2 u l)
      = ∑ r : Fin 8192, max zeroW ((marginW - x0 (ix2 r l)) + x1 (ix2 r l)) := by
  unfold tileSums
  refine (shapeCast_a_1a_apply _ shapeCasts_S128_S1x128 u l).trans ?_
  refine (Ideal.multiReduction_add_single _ 0x00000000#32 reduces_S8192x128_S128 (.inl rfl) rfl (ix1 l)).trans ?_
  refine Finset.sum_congr rfl fun r _ => ?_
  have e : reduces_S8192x128_S128.lift (ix1 l) r = ix2 r l :=
    funext fun a => Fin.ext (by match a with | ⟨0, _⟩ => rfl | ⟨1, _⟩ => rfl)
  rw [e]
  rfl

/-- The region finds each input reshaped to 262144 x 128. -/
theorem entry_v0 (c : Dev nD) : (V m c main_v0 : S262144x128.Idx → EReal)
    = shapeCast S262144x128 (m ((c : Thread nD τ).loc main_arg0)) shapeCasts_S33554432_S262144x128 := by
  show StableHlo.after hostOps0 (fun b => m (c, b)) (Proc.devRef .tc main_v0) = _
  after_results
  rfl
theorem entry_v1 (c : Dev nD) : (V m c main_v1 : S262144x128.Idx → EReal)
    = shapeCast S262144x128 (m ((c : Thread nD τ).loc main_arg1)) shapeCasts_S33554432_S262144x128 := by
  show StableHlo.after hostOps0 (fun b => m (c, b)) (Proc.devRef .tc main_v1) = _
  after_results
  rfl

/-- Row R, lane l of the reshaped input is element 128 R + l of the flat one. -/
theorem reshape_read (a : S33554432.Idx → EReal) (R : Fin 262144) (l : Fin 128) :
    shapeCast S262144x128 a shapeCasts_S33554432_S262144x128 (ix2 R l) = flat a (R.val * 128 + l.val) := by
  have hR := R.isLt
  have hl := l.isLt
  have hk : R.val * 128 + l.val < 33554432 := by omega
  unfold flat
  rw [dif_pos hk]
  exact shapeCast_apply a _ _ _ (by rw [Shape.rowMajor_val_one, Shape.rowMajor_val_two]; rfl)

/-- The printed index maps over the grid: input blocks move down the rows with the point, the output block is the
    run's. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val / 16 :=
  (by decide +kernel : ∀ t : Fin grid0.N, _)

/-- Row r, lane l of the first input's block at point t. -/
theorem block0_read (c : Dev nD) (t : Fin cfg0.N) (r : Fin 8192) (l : Fin 128) :
    (iblk m c 0 t : Vec Ideal S8192x128 .f32) (ix2 r l)
      = flat (m ((c : Thread nD τ).loc main_arg0)) ((t.val * 8192 + r.val) * 128 + l.val) := by
  have ht : t.val < 32 := lt_of_lt_of_eq t.isLt (show cfg0.N = 32 from N_0)
  have hr := r.isLt
  unfold iblk
  rw [View.read_apply]
  show V m c main_v0 (((cfg0.win 0).blk t).view.emb (ix2 r l)) = _
  have e : ((cfg0.win 0).blk t).view.emb (ix2 r l) = ix2 (⟨t.val * 8192 + r.val, by omega⟩ : Fin 262144) l := by
    funext a; apply Fin.ext
    match a with
    | ⟨0, _⟩ => show win0_0.index t (0 : Fin 2) * 8192 + 1 * r.val = t.val * 8192 + r.val; rw [(index_facts t).1]; omega
    | ⟨1, _⟩ => show win0_0.index t (1 : Fin 2) * 128 + 1 * l.val = l.val; rw [(index_facts t).2.1]; omega
  rw [e, entry_v0, reshape_read]

/-- The same for the second input. -/
theorem block1_read (c : Dev nD) (t : Fin cfg0.N) (r : Fin 8192) (l : Fin 128) :
    (iblk m c 1 t : Vec Ideal S8192x128 .f32) (ix2 r l)
      = flat (m ((c : Thread nD τ).loc main_arg1)) ((t.val * 8192 + r.val) * 128 + l.val) := by
  have ht : t.val < 32 := lt_of_lt_of_eq t.isLt (show cfg0.N = 32 from N_0)
  have hr := r.isLt
  unfold iblk
  rw [View.read_apply]
  show V m c main_v1 (((cfg0.win 1).blk t).view.emb (ix2 r l)) = _
  have e : ((cfg0.win 1).blk t).view.emb (ix2 r l) = ix2 (⟨t.val * 8192 + r.val, by omega⟩ : Fin 262144) l := by
    funext a; apply Fin.ext
    match a with
    | ⟨0, _⟩ => show win0_1.index t (0 : Fin 2) * 8192 + 1 * r.val = t.val * 8192 + r.val; rw [(index_facts t).2.2.1]; omega
    | ⟨1, _⟩ => show win0_1.index t (1 : Fin 2) * 128 + 1 * l.val = l.val; rw [(index_facts t).2.2.2.1]; omega
  rw [e, entry_v1, reshape_read]

/-- Lane l of point n's column sums, in the flat inputs. -/
theorem pointSums_apply (c : Dev nD) (n : ℕ) (h : n < cfg0.N) (u : Fin 1) (l : Fin 128) :
    pointSums m c n h (ix2 u l)
      = Cert.Hinge.colSum zeroW marginW (flat (m ((c : Thread nD τ).loc main_arg0))) (flat (m ((c : Thread nD τ).loc main_arg1))) n l.val := by
  unfold pointSums
  refine (tileSums_apply (iblk m c 0 ⟨n, h⟩) (iblk m c 1 ⟨n, h⟩) u l).trans ?_
  unfold Cert.Hinge.colSum
  rw [← Fin.sum_univ_eq_sum_range (fun r => Cert.Hinge.elemK zeroW marginW (flat (m ((c : Thread nD τ).loc main_arg0))) (flat (m ((c : Thread nD τ).loc main_arg1))) ((n * 8192 + r) * 128 + l.val)) 8192]
  refine Finset.sum_congr rfl fun r _ => ?_
  unfold Cert.Hinge.elemK
  rw [block0_read m c ⟨n, h⟩ r l, block1_read m c ⟨n, h⟩ r l]

end Cert.KernelIdeal.Hinge

end
-- ==== Proof.HingeArray.lean ====
/-
  The kernel's result.  Reading the fold at a lane: after point 16c + j of run c the staging row's lane l holds the
  zero word plus the column sums of tiles 16c .. 16c + j at lane l.  The row is written back once per run, after
  its sixteenth point, into lanes 128c .. 128c + 127 of the 1 x 256 array of partial sums; the two runs' blocks
  cover that array, so lane q ends at the zero word plus the total of its run's sixteen tiles at lane q mod 128.
  After the region the program adds the 256 partial sums (from the zero word) and divides by the word of 2^25.
-/
import proofs.«111427_j82171314307698_2_alg».proof.Proof.HingeLanes

noncomputable section

open Idealize.ShloMosaic Idealize.ShloMosaic.TcCoe Idealize.SL.Sem
open Idealize.ShloMosaic.Pipeline (Dat)

namespace Cert.KernelIdeal.Hinge

open Cert.KernelIdeal Cert.KernelIdeal.Gen Idealize.ShloMosaic.ValueIdx

variable (m : (ℓ : Loc nD τ sig) → Buf (Elt Ideal) ℓ) (ρ : Dev nD → PrngReg)

/-- The two flat inputs on core c, read at naturals. -/
abbrev in0 (c : Dev nD) : ℕ → EReal := flat (m ((c : Thread nD τ).loc main_arg0))
abbrev in1 (c : Dev nD) : ℕ → EReal := flat (m ((c : Thread nD τ).loc main_arg1))

/-- The fold along a run from point b, read at lane l after j further points (j ≤ 15): the zero word plus the
    column sums of points b .. b + j. -/
theorem fold_apply (c : Dev nD) (b j : ℕ) (hj : j ≤ 15) (h : b + j < cfg0.N) (u : Fin 1) (l : Fin 128) :
    Pipeline.accAt (startRow m c) (stepRow m c) b j h (ix2 u l)
      = zeroW + ∑ s ∈ Finset.range (j + 1), Cert.Hinge.colSum zeroW marginW (in0 m c) (in1 m c) (b + s) l.val := by
  refine Pipeline.accAt_add_apply (ι := S1x128.Idx) (β := EReal) (startRow m c) (stepRow m c) (fun _ => zeroW)
    (fun n y => Cert.Hinge.colSum zeroW marginW (in0 m c) (in1 m c) n (y 1).val) b 15 ?_ ?_ j hj h (ix2 u l)
  · intro hb i
    obtain ⟨u', l', rfl⟩ : ∃ (u' : Fin 1) (l' : Fin 128), i = ix2 u' l' := ⟨i 0, i 1, eq_ix2 i⟩
    show zeroW + pointSums m c b hb (ix2 u' l') = _
    rw [pointSums_apply]
  · intro n hn acc i _ _
    obtain ⟨u', l', rfl⟩ : ∃ (u' : Fin 1) (l' : Fin 128), i = ix2 u' l' := ⟨i 0, i 1, eq_ix2 i⟩
    show acc (ix2 u' l') + pointSums m c n hn (ix2 u' l') = _
    rw [pointSums_apply]

/-- The 256 partial sums as a function of the two flat inputs: lane q holds the zero word plus its run's total at
    lane q mod 128. -/
def partialsOf (a b : S33554432.Idx → EReal) : S1x256.Idx → EReal :=
  fun j => zeroW + Cert.Hinge.laneTotal zeroW marginW (flat a) (flat b) (j 1).val

/-- The partial sums of core c's inputs. -/
abbrev partials (c : Dev nD) : S1x256.Idx → EReal :=
  partialsOf (m ((c : Thread nD τ).loc main_arg0)) (m ((c : Thread nD τ).loc main_arg1))

/-- What a run's last point writes back is its block of the partial sums. -/
theorem flushed_eq (c : Dev nD) (t : Fin cfg0.N) (hf : (cfg0.win 2).flush t = true) :
    (dats m 0 c).flushed 2 t = ((cfg0.win 2).blk t).view.read (Elt Ideal) (partials m c) := by
  have ht : t.val < 32 := lt_of_lt_of_eq t.isLt (show cfg0.N = 32 from N_0)
  have h15 : t.val % 16 = 15 := (flush0_2 t).mp hf
  have h' : 16 * (t.val / 16) + t.val % 16 < cfg0.N := by rw [Nat.div_add_mod]; exact t.isLt
  show (cfg0.win 2).cut (grid0.coords t) ((dats m 0 c).after 2 t) = _
  rw [after0_2, row_eq_fold m c t.val t.isLt h']
  funext y
  obtain ⟨u, l, rfl⟩ : ∃ (u : Fin 1) (l : Fin 128), y = ix2 u l := ⟨y 0, y 1, eq_ix2 y⟩
  show Pipeline.accAt (startRow m c) (stepRow m c) (16 * (t.val / 16)) (t.val % 16) h' (ix2 u l)
    = partials m c (((cfg0.win 2).blk t).view.emb (ix2 u l))
  refine (fold_apply m c _ _ (by omega) h' u l).trans ?_
  have hl := l.isLt
  have e1 : ((((cfg0.win 2).blk t).view.emb (ix2 u l)) 1).val = (t.val / 16) * 128 + l.val := by
    show win0_2.index t (1 : Fin 2) * 128 + 1 * l.val = _
    rw [(index_facts t).2.2.2.2.2]; omega
  show _ = zeroW + Cert.Hinge.laneTotal zeroW marginW (in0 m c) (in1 m c) ((((cfg0.win 2).blk t).view.emb (ix2 u l)) 1).val
  unfold Cert.Hinge.laneTotal
  rw [e1, h15, show ((t.val / 16) * 128 + l.val) / 128 = t.val / 16 from by omega,
    show ((t.val / 16) * 128 + l.val) % 128 = l.val from by omega]

/-- Every lane of the partial sums lies in the block some run writes back. -/
theorem covered (i : S1x256.Idx) :
    ∃ t : Fin cfg0.N, (cfg0.win 2).flush t = true ∧ i ∈ ((cfg0.win 2).blk t).view.set := by
  have h0 : (i 0).val < 1 := (i 0).isLt
  have h1 : (i 1).val < 256 := (i 1).isLt
  have hN : cfg0.N = 32 := N_0
  have hT : 16 * ((i 1).val / 128) + 15 < cfg0.N := by rw [hN]; omega
  refine ⟨⟨16 * ((i 1).val / 128) + 15, hT⟩, (flush0_2 _).mpr (by show (16 * ((i 1).val / 128) + 15) % 16 = 15; omega), ?_⟩
  show i ∈ ((View.whole main_v2).slice (win0_2.rect ⟨16 * ((i 1).val / 128) + 15, hT⟩)).set
  rw [View.set_slice_whole, Rect.mem_set_unit]
  obtain ⟨-, -, -, -, e4, e5⟩ := index_facts ⟨16 * ((i 1).val / 128) + 15, hT⟩
  have e5' : win0_2.index ⟨16 * ((i 1).val / 128) + 15, hT⟩ (1 : Fin 2) = (16 * ((i 1).val / 128) + 15) / 16 := e5
  intro a
  match a with
  | ⟨0, _⟩ =>
    show win0_2.index ⟨16 * ((i 1).val / 128) + 15, hT⟩ (0 : Fin 2) * 1 ≤ (i 0).val
      ∧ (i 0).val < win0_2.index ⟨16 * ((i 1).val / 128) + 15, hT⟩ (0 : Fin 2) * 1 + 1
    rw [e4]; omega
  | ⟨1, _⟩ =>
    show win0_2.index ⟨16 * ((i 1).val / 128) + 15, hT⟩ (1 : Fin 2) * 128 ≤ (i 1).val
      ∧ (i 1).val < win0_2.index ⟨16 * ((i 1).val / 128) + 15, hT⟩ (1 : Fin 2) * 128 + 128
    rw [e5']; omega

/-- So the array of partial sums ends holding them. -/
theorem final (c : Dev nD) : (dats m 0 c).arrAt 2 cfg0.N = partials m c :=
  (dats m 0 c).arrAt_eq_of_cover 2 (partials m c) (flushed_eq m c) covered

/-- The program's last two steps: add the 256 partial sums from the zero word, divide by the word of 2^25. -/
def meanOf (p : S1x256.Idx → EReal) : S_.Idx → EReal :=
  Host.divf (F := Ideal) (Host.reduceAdd (F := Ideal) p (constant (F := Ideal) S_ .f32 0x00000000#32) reducesTo_S1x256_S_d0_1 h_S_)
    (constant (F := Ideal) S_ .f32 0x4C000000#32)

/-- The program's result buffer after the region's tail. -/
theorem result_eq (c : Dev nD) :
    Pipeline.afterTail₀ cfgs (dats m) 0 (V0 m) [hostOps1] c main_v4 = meanOf (partials m c) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v2) = partials m c :=
    (Pipeline.withArrays_arr spec0 launch0.win.arr_inj c _ _ 2).trans (final m c)
  rw [e]
  rfl

/-- The kernel's run, read: the result buffer at the mean of the partial sums, the inputs as launched. -/
theorem run : θ_run defs (onTc (τ := τ) (main (F := Ideal))) ⟨m, fun _ => 0, ρ⟩ fun r => ∀ c : Dev nD,
      r.2.mem ((c.tc : Thread nD τ).loc main_v4) = meanOf (partials m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hinge

end
-- ==== Proof.HingeBridge.lean ====
/-
  The two programs compute one number.  The kernel's result is (z + sum over the 256 lanes of (z + lane total)) / 2^25
  and the reference's is (z + sum over all 2^25 elements of max(z, w - (a - b))) / 2^25, with z the zero word and w
  the word of 0.1.  The zero word is the real 0, so the inner z's vanish; the lane totals add up to the sum of the
  kernel's elements max(z, (w - a) + b) over every k < 2^25; and element by element the two spellings agree because
  the inputs are real numbers.  The division by the same word is never opened.
-/
import proofs.«111427_j82171314307698_2_alg».proof.Proof.HingeArray
import proofs.«111427_j82171314307698_2_alg».proof.Proof.Gen.ReferenceIdeal.Read

noncomputable section

open Idealize.ShloMosaic Idealize.ShloMosaic.TcCoe Idealize.SL.Sem
open Idealize.ShloMosaic.Pipeline (Dat)

namespace Cert.KernelIdeal.Hinge

open Cert.KernelIdeal Cert.KernelIdeal.Gen Idealize.ShloMosaic.ValueIdx Cert.Hinge Cert.LibSums

/-- The host's sum of the 256 partial sums, from the zero word. -/
theorem total_apply (p : S1x256.Idx → EReal) (i : S_.Idx) :
    Host.reduceAdd (F := Ideal) p (constant (F := Ideal) S_ .f32 0x00000000#32) reducesTo_S1x256_S_d0_1 h_S_ i
      = zeroW + ∑ j : S1x256.Idx, p j := by
  simp only [Host.reduceAdd, Ideal.hostReduceAdd_def]
  exact Ideal.hostReduceAdd_total reducesTo_S1x256_S_d0_1 (fun b => b.elim0) p _ i

/-- One element of the reference's array of hinges, in the flat inputs. -/
theorem ref_elem (a b : S33554432.Idx → EReal) (k : Fin 33554432) :
    Cert.ReferenceIdeal.Read.val_main_v4 (F := Ideal) a b (ix1 k) = elemR zeroW marginW (flat a) (flat b) k.val := by
  rw [Cert.ReferenceIdeal.Read.val_main_v4_apply, Cert.ReferenceIdeal.Read.val_main_v3_apply,
    Cert.ReferenceIdeal.Read.val_main_cst_0_apply, Cert.ReferenceIdeal.Read.val_main_v2_apply,
    Cert.ReferenceIdeal.Read.val_main_v1_apply, Cert.ReferenceIdeal.Read.val_main_cst_apply,
    Cert.ReferenceIdeal.Read.val_main_v0_apply]
  unfold elemR flat
  rw [dif_pos k.isLt, dif_pos k.isLt]
  rfl

/-- The sums the two programs divide are equal when every input entry is a real number. -/
theorem totals_eq (a b : S33554432.Idx → EReal) (ha : ∀ i, ∃ r : ℝ, a i = r) (hb : ∀ i, ∃ r : ℝ, b i = r) :
    Host.reduceAdd (F := Ideal) (partialsOf a b) (constant (F := Ideal) S_ .f32 0x00000000#32) reducesTo_S1x256_S_d0_1 h_S_
      = Cert.ReferenceIdeal.Read.val_main_v5 (F := Ideal) a b := by
  funext i
  rw [total_apply, Cert.ReferenceIdeal.Read.val_main_v5_apply, Cert.ReferenceIdeal.Read.val_main_cst_1_apply]
  refine congrArg (zeroW + ·) ?_
  rw [sum_idx2, Fin.sum_univ_one, sum_idx1]
  have hz : zeroW = 0 := Ideal.ofBits_zero_f32
  unfold partialsOf
  simp only [hz, zero_add]
  show ∑ q : Fin 256, laneTotal 0 marginW (flat a) (flat b) q.val
    = ∑ k : Fin 33554432, Cert.ReferenceIdeal.Read.val_main_v4 (F := Ideal) a b (ix1 k)
  rw [Fin.sum_univ_eq_sum_range (fun q => laneTotal 0 marginW (flat a) (flat b) q) 256, sum_laneTotal,
    ← Fin.sum_univ_eq_sum_range (fun k => elemK 0 marginW (flat a) (flat b) k) 33554432]
  refine Finset.sum_congr rfl fun k _ => ?_
  rw [ref_elem, hz]
  refine elemK_eq_elemR 0 marginW (flat a) (flat b) k.val ?_ ?_
  · unfold flat; rw [dif_pos k.isLt]; exact ha _
  · unfold flat; rw [dif_pos k.isLt]; exact hb _

/-- So the kernel's result is the reference's last stage. -/
theorem mean_eq (a b : S33554432.Idx → EReal) (ha : ∀ i, ∃ r : ℝ, a i = r) (hb : ∀ i, ∃ r : ℝ, b i = r) :
    meanOf (partialsOf a b) = Cert.ReferenceIdeal.Read.val_main_v6 (F := Ideal) a b := by
  unfold meanOf Cert.ReferenceIdeal.Read.val_main_v6
  rw [totals_eq a b ha hb]
  rfl

end Cert.KernelIdeal.Hinge

end
-- ==== Proof.HingeFinite.lean ====
/-
  What the precondition says.  "Every float input is finite" is stated as: for each input, every entry's absolute
  value is below the word of +infinity, all of them conjoined.  Read back entry by entry it says each entry x has
  max(x, -x) < +infinity on the extended reals, which rules out both infinities: each entry is a real number.
-/
import proofs.«111427_j82171314307698_2_alg».proof.Pre_finite_inputs
import proofs.«111427_j82171314307698_2_alg».proof.Proof.Gen.Pre_finite_inputs
import proofs.«111427_j82171314307698_2_alg».proof.Proof.LibSums
import Idealize.ShloMosaic.Lib.ReduceAll

noncomputable section

open Idealize.ShloMosaic Idealize.ShloMosaic.ValueIdx

namespace Cert.Hinge

instance : Subsingleton Cert.Pre_finite_inputs.S_.Idx := ⟨fun a b => funext fun d => d.elim0⟩

/-- Under the precondition every entry of both inputs is a real number. -/
theorem real_of_pre (a b : FVec Ideal Cert.Pre_finite_inputs.S33554432 .f32)
    (h : Cert.Pre_finite_inputs.fn (F := Ideal) a b = fun _ => 1#1) :
    (∀ i, ∃ r : ℝ, a i = r) ∧ (∀ i, ∃ r : ℝ, b i = r) := by
  have h0 := congrFun h ix0
  dsimp only [Cert.Pre_finite_inputs.fn] at h0
  obtain ⟨ha, hb⟩ := IntOp.andi_eq_one.1 h0
  exact ⟨fun i => Cert.LibSums.real_of_finite_bit (a i) (Host.reduce_andi_all _ _ _ _ _ ha i),
    fun i => Cert.LibSums.real_of_finite_bit (b i) (Host.reduce_andi_all _ _ _ _ _ hb i)⟩

end Cert.Hinge

end
-- ==== Proof.lean ====
/-
  The mean hinge loss mean_k max(0, 0.1 - (a_k - b_k)) over 2^25 elements: a kernel that streams the two inputs
  as thirty-two 8192 x 128 tiles, keeps per run of sixteen tiles a 128-lane row of column sums, and lets the
  program add the 256 lanes and divide by 2^25, against the reference that forms the whole array of hinges and
  takes its mean.

  The three frames are the generated ones (the reference's is its generated run with the result dropped).  The
  ideal pass rewrote nothing, so "preserves" is trivial.  For "algebraic": the kernel's result buffer ends at
  (z + sum of the 256 partial sums) / 2^25 (HingeCases, HingeFold, HingeLanes, HingeArray); the reference's at its
  last stage (the generated run and reads); the two are one extended real when the inputs are real numbers
  (HingeSum: the order of summation, and (w - a) + b = w - (a - b); HingeBridge), which the precondition gives
  (HingeFinite).
-/
import proofs.«111427_j82171314307698_2_alg».proof.Defs
import proofs.«111427_j82171314307698_2_alg».proof.Proof.Gen.Kernel
import proofs.«111427_j82171314307698_2_alg».proof.Proof.Gen.Kernel.Skeleton
import proofs.«111427_j82171314307698_2_alg».proof.Proof.Gen.Kernel.Launch
import proofs.«111427_j82171314307698_2_alg».proof.Proof.Gen.Kernel.Points
import proofs.«111427_j82171314307698_2_alg».proof.Proof.Gen.Kernel.Frame
import proofs.«111427_j82171314307698_2_alg».proof.Proof.Gen.KernelIdeal
import proofs.«111427_j82171314307698_2_alg».proof.Proof.Gen.KernelIdeal.Skeleton
import proofs.«111427_j82171314307698_2_alg».proof.Proof.Gen.KernelIdeal.Launch
import proofs.«111427_j82171314307698_2_alg».proof.Proof.Gen.KernelIdeal.Points
import proofs.«111427_j82171314307698_2_alg».proof.Proof.Gen.KernelIdeal.Frame
import proofs.«111427_j82171314307698_2_alg».proof.Proof.Gen.ReferenceIdeal
import proofs.«111427_j82171314307698_2_alg».proof.Proof.Gen.ReferenceIdeal.Run
import proofs.«111427_j82171314307698_2_alg».proof.Proof.Gen.ReferenceIdeal.Read
import proofs.«111427_j82171314307698_2_alg».proof.Proof.Gen.Pre_finite_inputs
import proofs.«111427_j82171314307698_2_alg».proof.Proof.HingeBridge
import proofs.«111427_j82171314307698_2_alg».proof.Proof.HingeFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the inputs, both programs end with the same mean: the kernel's result is the mean
    of its partial sums, the reference's its last stage, and under the precondition (every entry a real number)
    these are equal. -/
theorem algebraic : Cert.algebraic_KernelIdeal_ReferenceIdeal := by
  intro m ρ m' ρ' hpre hagree
  refine ⟨fun c => Cert.KernelIdeal.Hinge.meanOf (Cert.KernelIdeal.Hinge.partials m c), Cert.KernelIdeal.Hinge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v6_eq]
  obtain ⟨ha, hb⟩ := Cert.Hinge.real_of_pre _ _ (hpre c)
  exact (Cert.KernelIdeal.Hinge.mean_eq _ _ ha hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
